-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S1x128 : Shape := ⟨2, ![1, 128]⟩

abbrev nBuf : Space → Nat
  | .hbm => 60
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000x1, .f32⟩
  | .hbm, ⟨14, _⟩ => ⟨S_, .f32⟩
  | .hbm, ⟨15, _⟩ => ⟨S50000x1, .f32⟩
  | .hbm, ⟨16, _⟩ => ⟨S800000x1, .i32⟩
  | .hbm, ⟨17, _⟩ => ⟨S50000x1, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S_, .f32⟩
  | .hbm, ⟨22, _⟩ => ⟨S50000x1, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S128x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S128x128, .f32⟩
  | .hbm, ⟨58, _⟩ => ⟨S128x128, .f32⟩
  | .hbm, ⟨59, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000x1, .f32⟩
  | .hbm, ⟨27, _⟩ => ⟨S_, .f32⟩
  | .hbm, ⟨28, _⟩ => ⟨S50000x1, .f32⟩
  | .hbm, ⟨29, _⟩ => ⟨S800000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S_, .f32⟩
  | .hbm, ⟨61, _⟩ => ⟨S800000x1, .f32⟩
  | .hbm, ⟨62, _⟩ => ⟨S_, .f32⟩
  | .hbm, ⟨63, _⟩ => ⟨S50000x1, .f32⟩
  | .hbm, ⟨64, _⟩ => ⟨S800000x1, .i32⟩
  | .hbm, ⟨65, _⟩ => ⟨S50000x1, .f32⟩
  | .hbm, ⟨66, _⟩ => ⟨S_, .f32⟩
  | .hbm, ⟨67, _⟩ => ⟨S50000x1, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S128x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The kernel program's run, with its result named.

  The program is four stretches: host operations, the first dense kernel, host operations, the second dense kernel.
  Every execution ends with each buffer of a device at the contents the last stretch leaves: for the second
  kernel's output array that is what its ten write-backs have left in it.  This module states the run with that
  buffer in its post, beside the unchanged arguments.
-/
import proofs.«158415_j45389214384862_1_alg».proof.Proof.Gen.KernelIdeal.Frame

set_option maxRecDepth 16384

noncomputable section

namespace Cert.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at what the second kernel's
    write-backs leave and the arguments as launched. -/
theorem run_result : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result buffer's last contents are the second kernel's output array after its last write-back. -/
theorem W4_result (c : Dev nD) : W4 m ρ c (Proc.devRef .tc main_v41) = (dat1 (V3 m ρ) c).arrAt 5 cfg1.N :=
  W4_arr m ρ c 5

end Cert.SageRun

end
-- ==== Proof.SageSpec.lean ====
/-
  One dense stage of a mean-aggregating graph layer, as a function of whole arrays.

  For a matrix `A` of aggregated neighbour features and a matrix `R` of the nodes' own features (both rows × 128),
  two 128 × 128 weight matrices `Wl`, `Wr` already laid out as (input feature, output feature), and a bias `b`,
  the stage's entry (r, c) is

      ( Σₖ A (r, k) · Wl (k, c)  +  Σₖ R (r, k) · Wr (k, c) )  +  b c

  and the rectified stage takes the maximum of that with the number the zero word denotes.  The row count is a
  parameter: a block of rows of the stage is the stage of the blocks of rows.
-/
import Idealize.ShloMosaic.PureOps.Ideal
import Idealize.ShloMosaic.Lib.ValueIdx

noncomputable section

open scoped BigOperators

namespace Cert.Sage

open Idealize.ShloMosaic Idealize.ShloMosaic.ValueIdx

/-- Entry (r, c) of the dense stage: the two products' sums, then the bias. -/
def dense {n : Nat} (A R : (⟨2, ![n, 128]⟩ : Shape).Idx → EReal) (Wl Wr : (⟨2, ![128, 128]⟩ : Shape).Idx → EReal)
    (b : (⟨1, ![128]⟩ : Shape).Idx → EReal) : (⟨2, ![n, 128]⟩ : Shape).Idx → EReal :=
  fun i => (∑ k : Fin 128, A (ix2 (i 0) k) * Wl (ix2 k (i 1)) + ∑ k : Fin 128, R (ix2 (i 0) k) * Wr (ix2 k (i 1)))
    + b (ix1 (i 1))

/-- The rectified dense stage: the maximum with what the zero word denotes. -/
def denseRelu {n : Nat} (A R : (⟨2, ![n, 128]⟩ : Shape).Idx → EReal) (Wl Wr : (⟨2, ![128, 128]⟩ : Shape).Idx → EReal)
    (b : (⟨1, ![128]⟩ : Shape).Idx → EReal) : (⟨2, ![n, 128]⟩ : Shape).Idx → EReal :=
  fun i => max (dense A R Wl Wr b i) (Ideal.ofBits .f32 0x00000000#32)

end Cert.Sage

end
-- ==== Proof.Chain.lean ====
/-
  The graph side of the layer, as named functions of the arrays, and the whole two-layer result.

  The edge list is a 2 × 800000 integer array: row 0 the source node of each edge, row 1 its destination.  For a
  feature matrix `f`, `nbrSum f` adds, into row d of a zero matrix, row s of `f` for every edge (s, d) (a negative
  source index counts from the end, as array indexing does); `deg` counts the edges arriving at each node and
  `invDeg` is one over that count raised to at least one.  The kernel program forms the neighbourhood mean as
  `nbrSum f · invDeg`, feeds it with `f` itself through a dense stage, and does this twice, rectifying in between.
  These functions are never opened: both programs apply the same gather and the same scatter to equal arguments.
-/
import proofs.«158415_j45389214384862_1_alg».proof.KernelIdeal
import proofs.«158415_j45389214384862_1_alg».proof.Proof.Gen.KernelIdeal
import proofs.«158415_j45389214384862_1_alg».proof.Proof.SageSpec

set_option synthInstance.maxSize 4096

noncomputable section

namespace Cert.SageChain

open Idealize.ShloMosaic Cert.KernelIdeal Cert.KernelIdeal.Facts₀ Cert.KernelIdeal.Facts

abbrev Feat : Type := FVec Ideal S50000x128 .f32
abbrev Col : Type := FVec Ideal S50000x1 .f32
abbrev Edges : Type := IVec S2x800000 32
abbrev Nodes : Type := IVec S800000 32
abbrev Wt : Type := FVec Ideal S128x128 .f32
abbrev Bias : Type := FVec Ideal S128 .f32

/-- The edges' source nodes: row 0 of the edge list. -/
def src (e : Edges) : Nodes :=
  shapeCast _ (extractStridedSlice S1x800000 ![0, 0] e slices_S2x800000_S1x800000_0_0) shapeCasts_S1x800000_S800000

/-- The edges' destination nodes: row 1 of the edge list. -/
def dst (e : Edges) : Nodes :=
  shapeCast _ (extractStridedSlice S1x800000 ![1, 0] e slices_S2x800000_S1x800000_1_0) shapeCasts_S1x800000_S800000

/-- The sum, into each destination's row, of the source rows of `f` over the edges. -/
def nbrSum (f : Feat) (s d : Nodes) : Feat :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 f
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The number of edges arriving at each node, raised to at least one. -/
def degMax (d : Nodes) : Col :=
  maximumf
    (Host.scatterAdd scatter_S50000x1_S800000x1_S800000x1_1_0_0_1
      (broadcastInDim S50000x1 ![] bcast_S_S50000x1 (constant S_ .f32 0x00000000#32))
      (broadcastInDim S800000x1 ![0] bcast_S800000_S800000x1_0 d)
      (broadcastInDim S800000x1 ![] bcast_S_S800000x1 (constant S_ .f32 0x3F800000#32)))
    (broadcastInDim S50000x1 ![] bcast_S_S50000x1 (constant S_ .f32 0x3F800000#32))

/-- One over that count. -/
def invDeg (d : Nodes) : Col :=
  Host.divf (broadcastInDim S50000x1 ![] bcast_S_S50000x1 (constant S_ .f32 0x3F800000#32)) (degMax d)

/-- The neighbourhood mean in the kernel program's spelling: the sum times a column of reciprocals. -/
def meanMul (f : Feat) (s d : Nodes) (inv : Col) : Feat :=
  mulf (nbrSum f s d) (broadcastInDim S50000x128 ![0, 1] bcast_S50000x1_S50000x128_0_1 inv)

/-- A weight matrix laid out as (input feature, output feature). -/
def wT (w : Wt) : Wt := transpose S128x128 [1, 0] w transposes_S128x128_S128x128_1_0

/-- The first layer: the rectified dense stage of the neighbourhood mean and the features. -/
def hidden (x : Feat) (e : Edges) (w2 w3 : Wt) (b4 : Bias) : Feat :=
  Cert.Sage.denseRelu (n := 50000) (meanMul x (src e) (dst e) (invDeg (dst e))) x (wT w2) (wT w3) b4

/-- The two layers: the dense stage of the hidden features' neighbourhood mean and the hidden features. -/
def output (x : Feat) (e : Edges) (w2 w3 : Wt) (b4 : Bias) (w5 w6 : Wt) (b7 : Bias) : Feat :=
  Cert.Sage.dense (n := 50000) (meanMul (hidden x e w2 w3 b4) (src e) (dst e) (invDeg (dst e))) (hidden x e w2 w3 b4)
    (wT w5) (wT w6) b7

end Cert.SageChain

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.Body.lean ====
/-
  What each kernel body stores, read at an entry.

  Both bodies load a 5000-row block of aggregated features, the same rows of the nodes' own features, two
  128 × 128 weight matrices and a bias, and store one 5000 × 128 block.  The narrowing of the operands to a shorter
  float format is the identity on extended reals, a product into the zero accumulator is the plain sum over the
  contracted axis, the bias row is broadcast down the rows, so the stored block is the dense stage of the loaded
  blocks (`Cert.Sage.dense`); the first kernel also rectifies (`Cert.Sage.denseRelu`).
-/
import proofs.«158415_j45389214384862_1_alg».proof.Proof.Gen.KernelIdeal.Skeleton
import proofs.«158415_j45389214384862_1_alg».proof.Proof.LibPlainMatmul
import proofs.«158415_j45389214384862_1_alg».proof.Proof.SageSpec
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.SageBody

open Idealize.ShloMosaic Idealize.ShloMosaic.ValueIdx Cert.KernelIdeal Cert.KernelIdeal.Gen

/-! ## Where the product's dimension record reads its operands -/

/-- The left operand is read on the result's row. -/
theorem dot_l0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- … and at the contracted coordinate on its second axis. -/
theorem dot_l1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q

/-- The right operand is read at the contracted coordinate on its first axis … -/
theorem dot_r0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q

/-- … and on the result's column. -/
theorem dot_r1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block's product into the zero accumulator, at entry (p, q): the sum over k of left (p, k) · right (k, q). -/
theorem mm_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) :=
  Cert.PlainMatmul.matmul_zero_apply (M := 5000) (K := 128) (N := 128) dot_S5000x128_S128x128_S5000x128_1_0_0_1_n_n rfl rfl
    dot_l0 dot_l1 dot_r0 dot_r1 none l r p q

/-! ## The two payloads -/

/-- The first kernel's stored block is the rectified dense stage of its loaded blocks. -/
theorem pay0_apply (x0 x1 : Vec Ideal S5000x128 .f32) (x2 x3 : Vec Ideal S128x128 .f32) (x4 : Vec Ideal S128 .f32)
    (j : S5000x128.Idx) :
    k0_pay1 (F := Ideal) x0 x1 x2 x3 x4 j = Cert.Sage.denseRelu x0 x1 x2 x3 x4 j := by
  obtain ⟨p, q, rfl⟩ : ∃ (p : Fin 5000) (q : Fin 128), j = ix2 p q := ⟨j 0, j 1, eq_ix2 j⟩
  unfold k0_pay1 Cert.Sage.denseRelu Cert.Sage.dense
  rw [maximumf_apply, addf_apply, addf_apply, broadcast_apply, mm_apply, mm_apply, broadcastTo_1b_ab_apply,
    shapeCast_a_1a_apply]
  simp only [truncf_apply, shapeCast_self, Ideal.ofBits_def]

/-- The second kernel's stored block is the dense stage of its loaded blocks. -/
theorem pay1_apply (x0 x1 : Vec Ideal S5000x128 .f32) (x2 x3 : Vec Ideal S128x128 .f32) (x4 : Vec Ideal S128 .f32)
    (j : S5000x128.Idx) :
    k1_pay1 (F := Ideal) x0 x1 x2 x3 x4 j = Cert.Sage.dense x0 x1 x2 x3 x4 j := by
  obtain ⟨p, q, rfl⟩ : ∃ (p : Fin 5000) (q : Fin 128), j = ix2 p q := ⟨j 0, j 1, eq_ix2 j⟩
  unfold k1_pay1 Cert.Sage.dense
  rw [addf_apply, addf_apply, mm_apply, mm_apply, broadcastTo_1b_ab_apply, shapeCast_a_1a_apply]
  simp only [truncf_apply, shapeCast_self]

end Cert.SageBody

end
-- ==== Proof.Blocks0.lean ====
/-
  The first kernel's output array, from its blocks.

  The kernel's grid has ten points; point t stages rows 5000·t … 5000·t + 4999 of the two feature matrices, the two
  weight matrices and the bias whole, and writes back rows 5000·t … 5000·t + 4999 of the output.  An entry of the
  dense stage depends only on its own row of the feature matrices, so the block a point writes back is that block of
  rows of the dense stage of the WHOLE arrays; the ten blocks tile the 50000 rows, so the output array ends as the
  dense stage of the arrays the kernel found.  The arrays are a parameter `V`: whatever the buffers hold when the
  kernel is entered.
-/
import proofs.«158415_j45389214384862_1_alg».proof.Proof.Gen.KernelIdeal.Frame
import proofs.«158415_j45389214384862_1_alg».proof.Proof.Body
import Idealize.ShloMosaic.Lib.Pipeline.Value

set_option maxRecDepth 16384

noncomputable section

open scoped BigOperators

namespace Cert.SageBlocks0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The dense stage of the arrays the kernel finds. -/
abbrev G (c : Dev nD) : S50000x128.Idx → EReal :=
  Cert.Sage.denseRelu (n := 50000) (V c main_v23) (V c main_arg0) (V c main_v24) (V c main_v25) (V c main_arg4)

/-- The printed index maps, decided over the ten points: the feature blocks and the output block sit at block row t,
    the weights and the bias at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- WHAT POINT `t` WRITES BACK is block `t` of the dense stage of the arrays as the kernel finds them. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  obtain ⟨e00, e01, e10, e11, e20, e21, e30, e31, e40, e50, e51⟩ := idx_facts t
  funext j
  show k0_pay1 (F := Ideal) (iblk0 V c 0 t) (iblk0 V c 1 t) (iblk0 V c 2 t) (iblk0 V c 3 t) (iblk0 V c 4 t) j
    = G V c (((cfg0.win 5).blk t).view.emb j)
  refine (Cert.SageBody.pay0_apply (iblk0 V c 0 t) (iblk0 V c 1 t) (iblk0 V c 2 t) (iblk0 V c 3 t) (iblk0 V c 4 t) j).trans ?_
  -- the row and the column of the array entry that block entry `j` is
  have hr : ((((cfg0.win 5).blk t).view.emb j) 0).val = win0_5.index t (0 : Fin 2) * 5000 + 1 * (j 0).val := rfl
  have hc : ((((cfg0.win 5).blk t).view.emb j) 1).val = win0_5.index t (1 : Fin 2) * 128 + 1 * (j 1).val := rfl
  generalize ((cfg0.win 5).blk t).view.emb j = i at hr hc
  have hj0 : (j 0).val < 5000 := (j 0).isLt
  have hj1 : (j 1).val < 128 := (j 1).isLt
  -- each staged block read where the output's entry says
  have hA : ∀ k : Fin 128, iblk0 V c 0 t (ix2 (j 0) k) = V c main_v23 (ix2 (i 0) k) := fun k => by
    show V c main_v23 (((cfg0.win 0).blk t).view.emb (ix2 (j 0) k)) = _
    refine congrArg _ (funext fun a => Fin.ext ?_)
    match a with
    | ⟨0, _⟩ => show win0_0.index t (0 : Fin 2) * 5000 + 1 * (j 0).val = (i 0).val; omega
    | ⟨1, _⟩ => show win0_0.index t (1 : Fin 2) * 128 + 1 * k.val = k.val; omega
  have hR : ∀ k : Fin 128, iblk0 V c 1 t (ix2 (j 0) k) = V c main_arg0 (ix2 (i 0) k) := fun k => by
    show V c main_arg0 (((cfg0.win 1).blk t).view.emb (ix2 (j 0) k)) = _
    refine congrArg _ (funext fun a => Fin.ext ?_)
    match a with
    | ⟨0, _⟩ => show win0_1.index t (0 : Fin 2) * 5000 + 1 * (j 0).val = (i 0).val; omega
    | ⟨1, _⟩ => show win0_1.index t (1 : Fin 2) * 128 + 1 * k.val = k.val; omega
  have hWl : ∀ k : Fin 128, iblk0 V c 2 t (ix2 k (j 1)) = V c main_v24 (ix2 k (i 1)) := fun k => by
    show V c main_v24 (((cfg0.win 2).blk t).view.emb (ix2 k (j 1))) = _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * (j 1).val = (i 1).val; omega
  have hWr : ∀ k : Fin 128, iblk0 V c 3 t (ix2 k (j 1)) = V c main_v25 (ix2 k (i 1)) := fun k => by
    show V c main_v25 (((cfg0.win 3).blk t).view.emb (ix2 k (j 1))) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (j 1).val = (i 1).val; omega
  have hb : iblk0 V c 4 t (ix1 (j 1)) = V c main_arg4 (ix1 (i 1)) := by
    show V c main_arg4 (((cfg0.win 4).blk t).view.emb (ix1 (j 1))) = _
    refine congrArg _ (funext fun a => Fin.ext ?_)
    match a with
    | ⟨0, _⟩ => show win0_4.index t (0 : Fin 1) * 128 + 1 * (j 1).val = (i 1).val; omega
  unfold Cert.Sage.denseRelu Cert.Sage.dense
  refine congrArg (fun v => max v _) ?_
  exact congrArg₂ (· + ·)
    (congrArg₂ (· + ·)
      (Finset.sum_congr rfl fun k _ => congrArg₂ (· * ·) (hA k) (hWl k))
      (Finset.sum_congr rfl fun k _ => congrArg₂ (· * ·) (hR k) (hWr k)))
    hb

/-- An entry of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Row r of the output is written back by point r / 5000: the ten blocks tile the array. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  have ht : (i 0).val / 5000 < cfg0.N := by show (i 0).val / 5000 < grid0.N; omega
  refine ⟨⟨(i 0).val / 5000, ht⟩, flush0_5 _, ?_⟩
  rw [mem_blk]
  obtain ⟨-, -, -, -, -, -, -, -, -, e50, e51⟩ := idx_facts ⟨(i 0).val / 5000, ht⟩
  have e50' : win0_5.index ⟨(i 0).val / 5000, ht⟩ (0 : Fin 2) = (i 0).val / 5000 := e50
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    omega

/-- THE OUTPUT ARRAY after the kernel's ten points is the dense stage of the arrays it found. -/
theorem final (c : Dev nD) : (dat0 V c).arrAt 5 cfg0.N = G V c :=
  (dat0 V c).arrAt_eq_of_cover 5 (G V c) (fun t _ => flushed_eq V c t) cover

end Cert.SageBlocks0

end
-- ==== Proof.Blocks1.lean ====
/-
  The second kernel's output array, from its blocks.

  The kernel's grid has ten points; point t stages rows 5000·t … 5000·t + 4999 of the two feature matrices, the two
  weight matrices and the bias whole, and writes back rows 5000·t … 5000·t + 4999 of the output.  An entry of the
  dense stage depends only on its own row of the feature matrices, so the block a point writes back is that block of
  rows of the dense stage of the WHOLE arrays; the ten blocks tile the 50000 rows, so the output array ends as the
  dense stage of the arrays the kernel found.  The arrays are a parameter `V`: whatever the buffers hold when the
  kernel is entered.
-/
import proofs.«158415_j45389214384862_1_alg».proof.Proof.Gen.KernelIdeal.Frame
import proofs.«158415_j45389214384862_1_alg».proof.Proof.Body
import Idealize.ShloMosaic.Lib.Pipeline.Value

set_option maxRecDepth 16384

noncomputable section

open scoped BigOperators

namespace Cert.SageBlocks1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The dense stage of the arrays the kernel finds. -/
abbrev G (c : Dev nD) : S50000x128.Idx → EReal :=
  Cert.Sage.dense (n := 50000) (V c main_v38) (V c main_v26) (V c main_v39) (V c main_v40) (V c main_arg7)

/-- The printed index maps, decided over the ten points: the feature blocks and the output block sit at block row t,
    the weights and the bias at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- WHAT POINT `t` WRITES BACK is block `t` of the dense stage of the arrays as the kernel finds them. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  obtain ⟨e00, e01, e10, e11, e20, e21, e30, e31, e40, e50, e51⟩ := idx_facts t
  funext j
  show k1_pay1 (F := Ideal) (iblk1 V c 0 t) (iblk1 V c 1 t) (iblk1 V c 2 t) (iblk1 V c 3 t) (iblk1 V c 4 t) j
    = G V c (((cfg1.win 5).blk t).view.emb j)
  refine (Cert.SageBody.pay1_apply (iblk1 V c 0 t) (iblk1 V c 1 t) (iblk1 V c 2 t) (iblk1 V c 3 t) (iblk1 V c 4 t) j).trans ?_
  -- the row and the column of the array entry that block entry `j` is
  have hr : ((((cfg1.win 5).blk t).view.emb j) 0).val = win1_5.index t (0 : Fin 2) * 5000 + 1 * (j 0).val := rfl
  have hc : ((((cfg1.win 5).blk t).view.emb j) 1).val = win1_5.index t (1 : Fin 2) * 128 + 1 * (j 1).val := rfl
  generalize ((cfg1.win 5).blk t).view.emb j = i at hr hc
  have hj0 : (j 0).val < 5000 := (j 0).isLt
  have hj1 : (j 1).val < 128 := (j 1).isLt
  -- each staged block read where the output's entry says
  have hA : ∀ k : Fin 128, iblk1 V c 0 t (ix2 (j 0) k) = V c main_v38 (ix2 (i 0) k) := fun k => by
    show V c main_v38 (((cfg1.win 0).blk t).view.emb (ix2 (j 0) k)) = _
    refine congrArg _ (funext fun a => Fin.ext ?_)
    match a with
    | ⟨0, _⟩ => show win1_0.index t (0 : Fin 2) * 5000 + 1 * (j 0).val = (i 0).val; omega
    | ⟨1, _⟩ => show win1_0.index t (1 : Fin 2) * 128 + 1 * k.val = k.val; omega
  have hR : ∀ k : Fin 128, iblk1 V c 1 t (ix2 (j 0) k) = V c main_v26 (ix2 (i 0) k) := fun k => by
    show V c main_v26 (((cfg1.win 1).blk t).view.emb (ix2 (j 0) k)) = _
    refine congrArg _ (funext fun a => Fin.ext ?_)
    match a with
    | ⟨0, _⟩ => show win1_1.index t (0 : Fin 2) * 5000 + 1 * (j 0).val = (i 0).val; omega
    | ⟨1, _⟩ => show win1_1.index t (1 : Fin 2) * 128 + 1 * k.val = k.val; omega
  have hWl : ∀ k : Fin 128, iblk1 V c 2 t (ix2 k (j 1)) = V c main_v39 (ix2 k (i 1)) := fun k => by
    show V c main_v39 (((cfg1.win 2).blk t).view.emb (ix2 k (j 1))) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * (j 1).val = (i 1).val; omega
  have hWr : ∀ k : Fin 128, iblk1 V c 3 t (ix2 k (j 1)) = V c main_v40 (ix2 k (i 1)) := fun k => by
    show V c main_v40 (((cfg1.win 3).blk t).view.emb (ix2 k (j 1))) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * (j 1).val = (i 1).val; omega
  have hb : iblk1 V c 4 t (ix1 (j 1)) = V c main_arg7 (ix1 (i 1)) := by
    show V c main_arg7 (((cfg1.win 4).blk t).view.emb (ix1 (j 1))) = _
    refine congrArg _ (funext fun a => Fin.ext ?_)
    match a with
    | ⟨0, _⟩ => show win1_4.index t (0 : Fin 1) * 128 + 1 * (j 1).val = (i 1).val; omega
  unfold Cert.Sage.dense
  exact congrArg₂ (· + ·)
    (congrArg₂ (· + ·)
      (Finset.sum_congr rfl fun k _ => congrArg₂ (· * ·) (hA k) (hWl k))
      (Finset.sum_congr rfl fun k _ => congrArg₂ (· * ·) (hR k) (hWr k)))
    hb

/-- An entry of the output array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- Row r of the output is written back by point r / 5000: the ten blocks tile the array. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  have ht : (i 0).val / 5000 < cfg1.N := by show (i 0).val / 5000 < grid1.N; omega
  refine ⟨⟨(i 0).val / 5000, ht⟩, flush1_5 _, ?_⟩
  rw [mem_blk]
  obtain ⟨-, -, -, -, -, -, -, -, -, e50, e51⟩ := idx_facts ⟨(i 0).val / 5000, ht⟩
  have e50' : win1_5.index ⟨(i 0).val / 5000, ht⟩ (0 : Fin 2) = (i 0).val / 5000 := e50
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    omega

/-- THE OUTPUT ARRAY after the kernel's ten points is the dense stage of the arrays it found. -/
theorem final (c : Dev nD) : (dat1 V c).arrAt 5 cfg1.N = G V c :=
  (dat1 V c).arrAt_eq_of_cover 5 (G V c) (fun t _ => flushed_eq V c t) cover

end Cert.SageBlocks1

end
-- ==== Proof.Host.lean ====
/-
  What the kernel program's buffers hold at each boundary between its stretches.

  Before the first kernel the host stretch has left the neighbourhood mean of the input features, the transposed
  weights and, for later, the edge rows and the reciprocal degree column.  The first kernel's output array then holds
  the hidden features (Blocks0); nothing else it touches changes.  The second host stretch forms the hidden
  features' neighbourhood mean from the SAME edge rows and reciprocal column, and the second kernel's output array
  ends as the dense stage of those (Blocks1): the two-layer function `Cert.SageChain.output` of the arguments.
-/
import proofs.«158415_j45389214384862_1_alg».proof.Proof.Gen.KernelIdeal.Frame
import proofs.«158415_j45389214384862_1_alg».proof.Proof.Chain
import proofs.«158415_j45389214384862_1_alg».proof.Proof.Blocks0
import proofs.«158415_j45389214384862_1_alg».proof.Proof.Blocks1
import Idealize.ShloMosaic.Lib.StableHlo.Run

set_option maxRecDepth 16384
set_option synthInstance.maxSize 4096

noncomputable section

namespace Cert.SageHost

open Cert.KernelIdeal Cert.KernelIdeal.Gen Cert.KernelIdeal.Facts₀ Cert.KernelIdeal.Facts Cert.SageChain
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first host stretch -/

theorem W1_v23 (c : Dev nD) : W1 m ρ c (Proc.devRef .tc main_v23)
    = meanMul (m ((c : Thread nD τ).loc main_arg0)) (src (m ((c : Thread nD τ).loc main_arg1))) (dst (m ((c : Thread nD τ).loc main_arg1))) (invDeg (dst (m ((c : Thread nD τ).loc main_arg1)))) := by
  show StableHlo.after hostOps0 (W0 m ρ c) (Proc.devRef .tc main_v23) = _
  unfold meanMul nbrSum invDeg degMax src dst
  dsimp only [hostOps0]
  after_results_simp
  all_goals rfl

theorem W1_v24 (c : Dev nD) : W1 m ρ c (Proc.devRef .tc main_v24) = wT (m ((c : Thread nD τ).loc main_arg2)) := by
  show StableHlo.after hostOps0 (W0 m ρ c) (Proc.devRef .tc main_v24) = _
  unfold wT
  dsimp only [hostOps0]
  after_results_simp
  all_goals rfl

theorem W1_v25 (c : Dev nD) : W1 m ρ c (Proc.devRef .tc main_v25) = wT (m ((c : Thread nD τ).loc main_arg3)) := by
  show StableHlo.after hostOps0 (W0 m ρ c) (Proc.devRef .tc main_v25) = _
  unfold wT
  dsimp only [hostOps0]
  after_results_simp
  all_goals rfl

theorem W1_v1 (c : Dev nD) : W1 m ρ c (Proc.devRef .tc main_v1) = src (m ((c : Thread nD τ).loc main_arg1)) := by
  show StableHlo.after hostOps0 (W0 m ρ c) (Proc.devRef .tc main_v1) = _
  unfold src
  dsimp only [hostOps0]
  after_results_simp
  all_goals rfl

theorem W1_v3 (c : Dev nD) : W1 m ρ c (Proc.devRef .tc main_v3) = dst (m ((c : Thread nD τ).loc main_arg1)) := by
  show StableHlo.after hostOps0 (W0 m ρ c) (Proc.devRef .tc main_v3) = _
  unfold dst
  dsimp only [hostOps0]
  after_results_simp
  all_goals rfl

theorem W1_v11 (c : Dev nD) : W1 m ρ c (Proc.devRef .tc main_v11) = invDeg (dst (m ((c : Thread nD τ).loc main_arg1))) := by
  show StableHlo.after hostOps0 (W0 m ρ c) (Proc.devRef .tc main_v11) = _
  unfold invDeg degMax dst
  dsimp only [hostOps0]
  after_results_simp
  all_goals rfl

theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results_simp
  all_goals rfl

theorem W1_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results_simp
  all_goals rfl

theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results_simp
  all_goals rfl

theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results_simp
  all_goals rfl

theorem W1_arg7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results_simp
  all_goals rfl

/-! ## After the first kernel -/

/-- The hidden features: the first kernel's output array. -/
theorem W2_v26 (c : Dev nD) : W2 m ρ c (Proc.devRef .tc main_v26)
    = hidden (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Cert.SageBlocks0.final (V1 m ρ) c).trans ?_)
  show Cert.Sage.denseRelu (n := 50000) (W1 m ρ c (Proc.devRef .tc main_v23)) (W1 m ρ c (Proc.devRef .tc main_arg0))
    (W1 m ρ c (Proc.devRef .tc main_v24)) (W1 m ρ c (Proc.devRef .tc main_v25)) (W1 m ρ c (Proc.devRef .tc main_arg4)) = _
  rw [W1_v23, W1_arg0, W1_v24, W1_v25, W1_arg4]
  rfl

theorem W2_v1 (c : Dev nD) : W2 m ρ c (Proc.devRef .tc main_v1) = W1 m ρ c (Proc.devRef .tc main_v1) :=
  W2_of_ne m ρ c main_v1 (by decide)

theorem W2_v3 (c : Dev nD) : W2 m ρ c (Proc.devRef .tc main_v3) = W1 m ρ c (Proc.devRef .tc main_v3) :=
  W2_of_ne m ρ c main_v3 (by decide)

theorem W2_v11 (c : Dev nD) : W2 m ρ c (Proc.devRef .tc main_v11) = W1 m ρ c (Proc.devRef .tc main_v11) :=
  W2_of_ne m ρ c main_v11 (by decide)

theorem W2_arg5 (c : Dev nD) : W2 m ρ c (Proc.devRef .tc main_arg5) = W1 m ρ c (Proc.devRef .tc main_arg5) :=
  W2_of_ne m ρ c main_arg5 (by decide)

theorem W2_arg6 (c : Dev nD) : W2 m ρ c (Proc.devRef .tc main_arg6) = W1 m ρ c (Proc.devRef .tc main_arg6) :=
  W2_of_ne m ρ c main_arg6 (by decide)

theorem W2_arg7 (c : Dev nD) : W2 m ρ c (Proc.devRef .tc main_arg7) = W1 m ρ c (Proc.devRef .tc main_arg7) :=
  W2_of_ne m ρ c main_arg7 (by decide)

/-! ## After the second host stretch -/

theorem W3_v38 (c : Dev nD) : W3 m ρ c (Proc.devRef .tc main_v38)
    = meanMul (W2 m ρ c (Proc.devRef .tc main_v26)) (W2 m ρ c (Proc.devRef .tc main_v1)) (W2 m ρ c (Proc.devRef .tc main_v3))
        (W2 m ρ c (Proc.devRef .tc main_v11)) := by
  show StableHlo.after hostOps1 (W2 m ρ c) (Proc.devRef .tc main_v38) = _
  unfold meanMul nbrSum
  dsimp only [hostOps1]
  after_results_simp
  all_goals rfl

theorem W3_v39 (c : Dev nD) : W3 m ρ c (Proc.devRef .tc main_v39) = wT (W2 m ρ c (Proc.devRef .tc main_arg5)) := by
  show StableHlo.after hostOps1 (W2 m ρ c) (Proc.devRef .tc main_v39) = _
  unfold wT
  dsimp only [hostOps1]
  after_results_simp
  all_goals rfl

theorem W3_v40 (c : Dev nD) : W3 m ρ c (Proc.devRef .tc main_v40) = wT (W2 m ρ c (Proc.devRef .tc main_arg6)) := by
  show StableHlo.after hostOps1 (W2 m ρ c) (Proc.devRef .tc main_v40) = _
  unfold wT
  dsimp only [hostOps1]
  after_results_simp
  all_goals rfl

theorem W3_v26 (c : Dev nD) : W3 m ρ c (Proc.devRef .tc main_v26) = W2 m ρ c (Proc.devRef .tc main_v26) := by
  show StableHlo.after hostOps1 (W2 m ρ c) (Proc.devRef .tc main_v26) = _
  dsimp only [hostOps1]
  after_results_simp

theorem W3_arg7 (c : Dev nD) : W3 m ρ c (Proc.devRef .tc main_arg7) = W2 m ρ c (Proc.devRef .tc main_arg7) := by
  show StableHlo.after hostOps1 (W2 m ρ c) (Proc.devRef .tc main_arg7) = _
  dsimp only [hostOps1]
  after_results_simp

/-! ## The result -/

/-- The second kernel's output array after its last write-back is the two-layer function of the arguments. -/
theorem result_eq (c : Dev nD) : (dat1 (V3 m ρ) c).arrAt 5 cfg1.N
    = output (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (Cert.SageBlocks1.final (V3 m ρ) c).trans ?_
  show Cert.Sage.dense (n := 50000) (W3 m ρ c (Proc.devRef .tc main_v38)) (W3 m ρ c (Proc.devRef .tc main_v26))
    (W3 m ρ c (Proc.devRef .tc main_v39)) (W3 m ρ c (Proc.devRef .tc main_v40)) (W3 m ρ c (Proc.devRef .tc main_arg7)) = _
  rw [W3_v38, W3_v26, W3_v39, W3_v40, W3_arg7, W2_v26, W2_v1, W2_v3, W2_v11, W2_arg5, W2_arg6, W2_arg7,
    W1_v1, W1_v3, W1_v11, W1_arg5, W1_arg6, W1_arg7]
  rfl

end Cert.SageHost

end
-- ==== Proof.LibMeanLaw.lean ====
/-
  A neighbourhood mean written two ways, and the two orders of a bias.

  A mean over a neighbourhood is a sum `s` divided by a count `d` that is never let fall below one: `s / max d 1`.
  A program may instead form the reciprocal `1 / max d 1` once and multiply every sum by it.  On the extended reals
  the quotient by a NONZERO `y` is `x * y⁻¹`, and `max d 1` is at least one whatever `d` is (finite or not), so
  the two spellings agree for every extended real `s` and `d`: no finiteness is needed.

  The second law is about a dense stage `Σₖ aₖ wₖ` to which a second product `r` and a bias `b` are added: the two
  additions may come in either order, because addition of extended reals is commutative and associative.
  Nothing here mentions a program.
-/
import Idealize.ShloMosaic.PureOps.Ideal

noncomputable section

open scoped BigOperators

namespace Cert.MeanLaw

open Idealize.ShloMosaic

/-- A count raised to at least one is not zero. -/
theorem max_one_ne_zero (d : EReal) : max d 1 ≠ 0 :=
  ne_of_gt (lt_of_lt_of_le (by exact_mod_cast (zero_lt_one : (0 : ℝ) < 1)) (le_max_right d 1))

/-- Multiplying by the reciprocal of `max d 1` is dividing by `max d 1`, for every extended real `s`. -/
theorem mul_recip_eq_div (s d : EReal) : s * Ideal.div 1 (max d 1) = Ideal.div s (max d 1) := by
  simp only [Ideal.div, if_neg (max_one_ne_zero d), one_mul]

/-- A weighted sum of means plus a second term and a bias: the reciprocal spelling with the bias added last equals
    the quotient spelling with the bias added before the second term. -/
theorem mean_dense_comm {ι : Type} (t : Finset ι) (S w : ι → EReal) (d r b : EReal) :
    (∑ k ∈ t, (S k * Ideal.div 1 (max d 1)) * w k + r) + b
      = ((∑ k ∈ t, Ideal.div (S k) (max d 1) * w k) + b) + r := by
  rw [add_right_comm]
  refine congrArg (· + r) (congrArg (· + b) (Finset.sum_congr rfl fun k _ => ?_))
  rw [mul_recip_eq_div]

end Cert.MeanLaw

end
-- ==== Proof.MeanEq.lean ====
/-
  The two spellings of the neighbourhood mean are one array.

  The kernel program multiplies the neighbour sum by a column holding one over the clamped in-degree; the reference
  divides the neighbour sum by the clamped in-degree.  Entry by entry these agree on the extended reals because the
  clamped degree, a maximum with one, is never zero (`Cert.MeanLaw.mul_recip_eq_div`); nothing is assumed finite.
-/
import proofs.«158415_j45389214384862_1_alg».proof.Proof.Chain
import proofs.«158415_j45389214384862_1_alg».proof.Proof.LibMeanLaw
import Idealize.ShloMosaic.Lib.Pipeline.Value
import Idealize.ShloMosaic.Lib.ValueIdx
import Idealize.ShloMosaic.PureOps.Ideal.Laws

set_option synthInstance.maxSize 4096

noncomputable section

namespace Cert.SageChain

open Idealize.ShloMosaic Idealize.ShloMosaic.ValueIdx Cert.KernelIdeal Cert.KernelIdeal.Facts₀ Cert.KernelIdeal.Facts

/-- The word 0x3F800000 denotes one. -/
theorem one_word : Ideal.ofBits .f32 0x3F800000#32 = 1 := by
  simp [Ideal.ofBits, Ideal.ieee, -EReal.coe_mul]; norm_num

/-- The neighbourhood mean in the reference's spelling: the sum divided by the clamped in-degree. -/
def meanDiv (f : Feat) (s d : Nodes) : Feat :=
  Host.divf (nbrSum f s d) (broadcastInDim S50000x128 ![0, 1] bcast_S50000x1_S50000x128_0_1 (degMax d))

/-- The entry of a one-column array that row `i 0` of a 128-column array reads when the column is broadcast. -/
abbrev colIdx (i : S50000x128.Idx) : S50000x1.Idx := fun a => match a with
  | ⟨0, _⟩ => ⟨(i 0).val, (i 0).isLt⟩
  | ⟨1, _⟩ => ⟨0, Nat.one_pos⟩

/-- The column entry read has the row's coordinate and coordinate zero. -/
theorem colIdx_spec (i : S50000x128.Idx) : ∀ a : Fin S50000x1.rank,
    ((colIdx i) a).val = if S50000x1.size a = 1 then 0 else (i ((![0, 1] : Fin 2 → Fin 2) a)).val := fun a => match a with
  | ⟨0, _⟩ => by show (i 0).val = if (50000 : Nat) = 1 then 0 else (i 0).val; rw [if_neg (by decide)]
  | ⟨1, _⟩ => by show 0 = if (1 : Nat) = 1 then 0 else (i 1).val; rw [if_pos rfl]

/-- A column broadcast along the rows' 128 entries reads its own row. -/
theorem bcastCol_apply (y : (⟨S50000x1, .f32⟩ : BufTy).Contents (Elt Ideal)) (i : S50000x128.Idx) :
    broadcastInDim S50000x128 ![0, 1] bcast_S50000x1_S50000x128_0_1 y i = y (colIdx i) := by
  exact broadcastInDim_apply _ bcast_S50000x1_S50000x128_0_1 y i (colIdx i) (colIdx_spec i)

/-- The host's quotient of two arrays, read at an entry. -/
theorem hostDivf_apply {s : Shape} {φ : FTy} (a b : FVec Ideal s φ) (i : s.Idx) :
    Host.divf a b i = Ideal.div (a i) (b i) := rfl

/-- A column filled with the word 0x3F800000 holds one at every entry. -/
theorem ones_apply (j : S50000x1.Idx) :
    broadcastInDim S50000x1 ![] bcast_S_S50000x1 (constant (F := Ideal) S_ .f32 0x3F800000#32) j = 1 := by
  show Ideal.ofBits .f32 0x3F800000#32 = 1
  exact one_word

/-- The sum times the reciprocal column is the sum divided by the clamped degree column. -/
theorem mean_eq (f : Feat) (s d : Nodes) : meanMul f s d (invDeg d) = meanDiv f s d := by
  funext i
  unfold meanMul meanDiv invDeg degMax
  rw [mulf_apply, hostDivf_apply, bcastCol_apply, bcastCol_apply, hostDivf_apply, maximumf_apply, ones_apply]
  exact Cert.MeanLaw.mul_recip_eq_div _ _

end Cert.SageChain

end
-- ==== Proof.RefValue.lean ====
/-
  The reference computes the same two-layer function.

  Read one operation at a time, the reference's first layer is: the neighbour sum divided by the clamped in-degree,
  times the first weight matrix transposed, plus the bias, plus the features times the second weight matrix
  transposed, rectified.  The quotient is the kernel program's product with the reciprocal column (`mean_eq`), the two
  matrix products are the same sums over the contracted axis, and the bias may be added before or after the second
  product because addition of extended reals is commutative and associative.  So the reference's hidden features ARE
  `Cert.SageChain.hidden` of its arguments; the gather and the scatter of the second layer are then applied to equal
  arrays, and the same three facts give `Cert.SageChain.output`.
-/
import proofs.«158415_j45389214384862_1_alg».proof.Proof.Gen.ReferenceIdeal.Read
import proofs.«158415_j45389214384862_1_alg».proof.Proof.Chain
import proofs.«158415_j45389214384862_1_alg».proof.Proof.MeanEq
import Idealize.ShloMosaic.Lib.ValueIdx
import Idealize.ShloMosaic.PureOps.Ideal.Laws

set_option synthInstance.maxSize 4096

noncomputable section

open scoped BigOperators

namespace Cert.SageRef

open Idealize.ShloMosaic Idealize.ShloMosaic.ValueIdx Cert.ReferenceIdeal.Read Cert.SageChain

/-! ## The graph side: the reference's gather and scatter are the named functions -/

/-- The reference's first neighbourhood mean is the named one. -/
theorem ref_mean0 (x0 : (⟨Cert.ReferenceIdeal.S50000x128, .f32⟩ : BufTy).Contents (Elt Ideal)) (x1 : (⟨Cert.ReferenceIdeal.S2x800000, .i32⟩ : BufTy).Contents (Elt Ideal)) :
    val_main_v21 (F := Ideal) x0 x1 = meanMul x0 (src x1) (dst x1) (invDeg (dst x1)) :=
  (show val_main_v21 (F := Ideal) x0 x1 = meanDiv x0 (src x1) (dst x1) from rfl).trans (mean_eq x0 (src x1) (dst x1)).symm

/-- The reference's second neighbourhood mean is the named one, of the reference's hidden features. -/
theorem ref_mean1 (x0 : (⟨Cert.ReferenceIdeal.S50000x128, .f32⟩ : BufTy).Contents (Elt Ideal)) (x1 : (⟨Cert.ReferenceIdeal.S2x800000, .i32⟩ : BufTy).Contents (Elt Ideal)) (x2 x3 : (⟨Cert.ReferenceIdeal.S128x128, .f32⟩ : BufTy).Contents (Elt Ideal)) (x4 : (⟨Cert.ReferenceIdeal.S128, .f32⟩ : BufTy).Contents (Elt Ideal)) :
    val_main_v48 (F := Ideal) x0 x1 x2 x3 x4
      = meanMul (val_main_v30 (F := Ideal) x0 x1 x2 x3 x4) (src x1) (dst x1) (invDeg (dst x1)) :=
  (show val_main_v48 (F := Ideal) x0 x1 x2 x3 x4 = meanDiv (val_main_v30 (F := Ideal) x0 x1 x2 x3 x4) (src x1) (dst x1) from rfl).trans
    (mean_eq (val_main_v30 (F := Ideal) x0 x1 x2 x3 x4) (src x1) (dst x1)).symm

/-! ## The first layer -/

/-- The reference's hidden features are the kernel program's. -/
theorem ref_hidden (x0 : (⟨Cert.ReferenceIdeal.S50000x128, .f32⟩ : BufTy).Contents (Elt Ideal)) (x1 : (⟨Cert.ReferenceIdeal.S2x800000, .i32⟩ : BufTy).Contents (Elt Ideal)) (x2 x3 : (⟨Cert.ReferenceIdeal.S128x128, .f32⟩ : BufTy).Contents (Elt Ideal)) (x4 : (⟨Cert.ReferenceIdeal.S128, .f32⟩ : BufTy).Contents (Elt Ideal)) :
    val_main_v30 (F := Ideal) x0 x1 x2 x3 x4 = Cert.SageChain.hidden x0 x1 x2 x3 x4 := by
  funext i
  have el23 : ∀ k : Fin 128, lidx_main_v23 i k = ix2 (i 0) k := fun k => funext fun a => Fin.ext (by
    match a with
    | ⟨0, _⟩ => rfl
    | ⟨1, _⟩ => rfl)
  have er23 : ∀ k : Fin 128, ridx_main_v23 i k = ix2 k (i 1) := fun k => funext fun a => Fin.ext (by
    match a with
    | ⟨0, _⟩ => rfl
    | ⟨1, _⟩ => rfl)
  have el28 : ∀ k : Fin 128, lidx_main_v28 i k = ix2 (i 0) k := fun k => funext fun a => Fin.ext (by
    match a with
    | ⟨0, _⟩ => rfl
    | ⟨1, _⟩ => rfl)
  have er28 : ∀ k : Fin 128, ridx_main_v28 i k = ix2 k (i 1) := fun k => funext fun a => Fin.ext (by
    match a with
    | ⟨0, _⟩ => rfl
    | ⟨1, _⟩ => rfl)
  have eb : idx_main_v24 (idx_main_v25 i) = ix1 (i 1) := funext fun a => Fin.ext (by
    match a with
    | ⟨0, _⟩ => rfl)
  have ew2 : val_main_v22 (F := Ideal) x2 = wT x2 := rfl
  have ew3 : val_main_v27 (F := Ideal) x3 = wT x3 := rfl
  rw [val_main_v30_apply, val_main_v29_apply, val_main_v26_apply, val_main_v23_apply, val_main_v28_apply,
    val_main_v25_apply, val_main_v24_apply, val_main_call0_v0_apply, val_main_call0_cst_apply, ref_mean0, ew2, ew3]
  simp only [el23, er23, el28, er28, eb, Ideal.maximumf_def, Ideal.addf_def, Ideal.ofBits_def]
  unfold Cert.SageChain.hidden Cert.Sage.denseRelu Cert.Sage.dense
  rw [add_right_comm]
  rfl

/-! ## The second layer -/

/-- The reference's result is the two-layer function of its arguments. -/
theorem ref_output (x0 : (⟨Cert.ReferenceIdeal.S50000x128, .f32⟩ : BufTy).Contents (Elt Ideal)) (x1 : (⟨Cert.ReferenceIdeal.S2x800000, .i32⟩ : BufTy).Contents (Elt Ideal)) (x2 x3 : (⟨Cert.ReferenceIdeal.S128x128, .f32⟩ : BufTy).Contents (Elt Ideal)) (x4 : (⟨Cert.ReferenceIdeal.S128, .f32⟩ : BufTy).Contents (Elt Ideal)) (x5 x6 : (⟨Cert.ReferenceIdeal.S128x128, .f32⟩ : BufTy).Contents (Elt Ideal)) (x7 : (⟨Cert.ReferenceIdeal.S128, .f32⟩ : BufTy).Contents (Elt Ideal)) :
    val_main_v56 (F := Ideal) x0 x1 x2 x3 x4 x5 x6 x7 = output x0 x1 x2 x3 x4 x5 x6 x7 := by
  funext i
  have el50 : ∀ k : Fin 128, lidx_main_v50 i k = ix2 (i 0) k := fun k => funext fun a => Fin.ext (by
    match a with
    | ⟨0, _⟩ => rfl
    | ⟨1, _⟩ => rfl)
  have er50 : ∀ k : Fin 128, ridx_main_v50 i k = ix2 k (i 1) := fun k => funext fun a => Fin.ext (by
    match a with
    | ⟨0, _⟩ => rfl
    | ⟨1, _⟩ => rfl)
  have el55 : ∀ k : Fin 128, lidx_main_v55 i k = ix2 (i 0) k := fun k => funext fun a => Fin.ext (by
    match a with
    | ⟨0, _⟩ => rfl
    | ⟨1, _⟩ => rfl)
  have er55 : ∀ k : Fin 128, ridx_main_v55 i k = ix2 k (i 1) := fun k => funext fun a => Fin.ext (by
    match a with
    | ⟨0, _⟩ => rfl
    | ⟨1, _⟩ => rfl)
  have eb : idx_main_v51 (idx_main_v52 i) = ix1 (i 1) := funext fun a => Fin.ext (by
    match a with
    | ⟨0, _⟩ => rfl)
  have ew5 : val_main_v49 (F := Ideal) x5 = wT x5 := rfl
  have ew6 : val_main_v54 (F := Ideal) x6 = wT x6 := rfl
  rw [val_main_v56_apply, val_main_v53_apply, val_main_v50_apply, val_main_v55_apply, val_main_v52_apply,
    val_main_v51_apply, ref_mean1, ref_hidden, ew5, ew6]
  simp only [el50, er50, el55, er55, eb, Ideal.addf_def]
  unfold output Cert.Sage.dense
  rw [add_right_comm]
  rfl

end Cert.SageRef

end
-- ==== Proof.lean ====
/-
  Two graph-convolution layers with mean aggregation: the kernel program against the plain reference, on the extended reals.

  A layer takes node features `f` (50000 × 128) and an edge list, forms for every node the mean of its in-neighbours'
  features — the sum over arriving edges of the source rows, over the in-degree raised to at least one — and returns
  `mean · Wlᵀ + b + f · Wrᵀ`; the first layer is rectified and its result is the second layer's `f`.

  Both programs compute the neighbour sums and the degrees by the same gather and the same scatter on the host.  They
  differ in three places, none of which matters for exact extended-real arithmetic:
    * the kernel program multiplies the sum by the reciprocal of the clamped degree where the reference divides by it
      (equal because the clamped degree is never zero: Proof/LibMeanLaw.lean, Proof/MeanEq.lean);
    * the kernel program's dense stage runs on a ten-point grid of 5000-row blocks with operands narrowed to a shorter
      float format, where the reference has two whole matrix products (the narrowing is the identity, a row's result
      depends on that row only, and the ten blocks tile the rows: Proof/Body.lean, Proof/Blocks0.lean, Proof/Blocks1.lean);
    * the bias is added after the second product instead of before it (addition is commutative and associative).
  So both results are `Cert.SageChain.output` of the arguments (Proof/Host.lean for the kernel program through its four
  stretches, Proof/RefValue.lean for the reference).  The precondition is not needed for the equality.
  The idealized kernel program is the kernel program's own text read at exact arithmetic (no operation is rewritten), so
  the claim that relates the two is `True`.
-/
import proofs.«158415_j45389214384862_1_alg».proof.Defs
import proofs.«158415_j45389214384862_1_alg».proof.Proof.Gen.Kernel
import proofs.«158415_j45389214384862_1_alg».proof.Proof.Gen.Kernel.Skeleton
import proofs.«158415_j45389214384862_1_alg».proof.Proof.Gen.Kernel.Launch
import proofs.«158415_j45389214384862_1_alg».proof.Proof.Gen.Kernel.Points
import proofs.«158415_j45389214384862_1_alg».proof.Proof.Gen.Kernel.Frame
import proofs.«158415_j45389214384862_1_alg».proof.Proof.Gen.KernelIdeal
import proofs.«158415_j45389214384862_1_alg».proof.Proof.Gen.KernelIdeal.Skeleton
import proofs.«158415_j45389214384862_1_alg».proof.Proof.Gen.KernelIdeal.Launch
import proofs.«158415_j45389214384862_1_alg».proof.Proof.Gen.KernelIdeal.Points
import proofs.«158415_j45389214384862_1_alg».proof.Proof.Gen.KernelIdeal.Frame
import proofs.«158415_j45389214384862_1_alg».proof.Proof.Gen.ReferenceIdeal
import proofs.«158415_j45389214384862_1_alg».proof.Proof.Gen.ReferenceIdeal.Run
import proofs.«158415_j45389214384862_1_alg».proof.Proof.Gen.ReferenceIdeal.Read
import proofs.«158415_j45389214384862_1_alg».proof.Proof.Gen.Pre_finite_inputs
import proofs.«158415_j45389214384862_1_alg».proof.Proof.KRun
import proofs.«158415_j45389214384862_1_alg».proof.Proof.Host
import proofs.«158415_j45389214384862_1_alg».proof.Proof.RefValue
import Idealize.ShloMosaic.Adequacy
import Idealize.ShloMosaic.Init

noncomputable section

namespace Cert.Proof

open Idealize.ShloMosaic Idealize.ShloMosaic.TcCoe Idealize.SL.Sem

/-- The kernel program runs and keeps its arguments (word level). -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the two-layer function of the arguments in their result. -/
theorem algebraic : Cert.algebraic_KernelIdeal_ReferenceIdeal := by
  intro m ρ m' ρ' _ hagree
  refine ⟨fun c => Cert.SageChain.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans ((Cert.SageRun.W4_result m ρ c).trans (Cert.SageHost.result_eq m ρ c)), (h c).2⟩)
      (Cert.SageRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v56_eq, Cert.SageRef.ref_output, (hagree c).1, (hagree c).2.1, (hagree c).2.2.1,
      (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
